-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200x8x512 : Shape := ⟨3, ![200, 8, 512]⟩
abbrev S50x8x512 : Shape := ⟨3, ![50, 8, 512]⟩
abbrev S640x1024 : Shape := ⟨2, ![640, 1024]⟩
abbrev S640 : Shape := ⟨1, ![640]⟩
abbrev S1000x640 : Shape := ⟨2, ![1000, 640]⟩
abbrev S1000 : Shape := ⟨1, ![1000]⟩
abbrev S_ : Shape := ⟨0, ![]⟩

class Facts : Prop where
  bcast_S_S200x8x512 : S_.BroadcastsInDim S200x8x512 (![] : Fin 0 → Fin S200x8x512.rank)
  reducesTo_S200x8x512_S_d0_1_2 : S200x8x512.ReducesTo [0, 1, 2] S_
  h_S_ : 0 < S_.numel
  bcast_S_S50x8x512 : S_.BroadcastsInDim S50x8x512 (![] : Fin 0 → Fin S50x8x512.rank)
  reducesTo_S50x8x512_S_d0_1_2 : S50x8x512.ReducesTo [0, 1, 2] S_
  bcast_S_S640x1024 : S_.BroadcastsInDim S640x1024 (![] : Fin 0 → Fin S640x1024.rank)
  reducesTo_S640x1024_S_d0_1 : S640x1024.ReducesTo [0, 1] S_
  bcast_S_S640 : S_.BroadcastsInDim S640 (![] : Fin 0 → Fin S640.rank)
  reducesTo_S640_S_d0 : S640.ReducesTo [0] S_
  bcast_S_S1000x640 : S_.BroadcastsInDim S1000x640 (![] : Fin 0 → Fin S1000x640.rank)
  reducesTo_S1000x640_S_d0_1 : S1000x640.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000x640 .f32) (main_arg5 : FVec F S1000 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S1000x640 .f32 := Host.absf main_arg4
  let main_cst_6 : FVec F S_ .f32 := constant S_ .f32 0x7F800000#32
  let main_v20 : FVec F S1000x640 .f32 := broadcastInDim S1000x640 ![] bcast_S_S1000x640 main_cst_6
  let main_v21 : IVec S1000x640 1 := cmpf .olt main_v19 main_v20
  let main_c_7 : IVec S_ 1 := constantI S_ 1 1#1
  let main_v22 : IVec S_ 1 := (fun x v => Host.reduce IntOp.andi x v reducesTo_S1000x640_S_d0_1 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  main_v28

def fn {F : FTy → Type} [FloatOps F] (main_arg0 : FVec F S200x8x512 .f32) (main_arg1 : FVec F S50x8x512 .f32) (main_arg2 : FVec F S640x1024 .f32) (main_arg3 : FVec F S640 .f32) (main_arg4 : FVec F S1000x640 .f32) (main_arg5 : FVec F S1000 .f32) : IVec S_ 1 :=
  let main_v0 : FVec F S200x8x512 .f32 := Host.absf main_arg0
  let main_cst : FVec F S_ .f32 := constant S_ .f32 0x7F800000#32
  let main_v1 : FVec F S200x8x512 .f32 := broadcastInDim S200x8x512 ![] bcast_S_S200x8x512 main_cst
  let main_v2 : IVec S200x8x512 1 := cmpf .olt main_v0 main_v1
  let main_c : IVec S_ 1 := constantI S_ 1 1#1
  let main_v3 : IVec S_ 1 := (fun x v => Host.reduce IntOp.andi x v reducesTo_S200x8x512_S_d0_1_2 h_S_) main_v2 main_c
  let main_v4 : FVec F S50x8x512 .f32 := Host.absf main_arg1
  let main_cst_0 : FVec F S_ .f32 := constant S_ .f32 0x7F800000#32
  let main_v5 : FVec F S50x8x512 .f32 := broadcastInDim S50x8x512 ![] bcast_S_S50x8x512 main_cst_0
  let main_v6 : IVec S50x8x512 1 := cmpf .olt main_v4 main_v5
  let main_c_1 : IVec S_ 1 := constantI S_ 1 1#1
  let main_v7 : IVec S_ 1 := (fun x v => Host.reduce IntOp.andi x v reducesTo_S50x8x512_S_d0_1_2 h_S_) main_v6 main_c_1
  let main_v8 : IVec S_ 1 := andi main_v3 main_v7
  let main_v9 : FVec F S640x1024 .f32 := Host.absf main_arg2
  let main_cst_2 : FVec F S_ .f32 := constant S_ .f32 0x7F800000#32
  let main_v10 : FVec F S640x1024 .f32 := broadcastInDim S640x1024 ![] bcast_S_S640x1024 main_cst_2
  let main_v11 : IVec S640x1024 1 := cmpf .olt main_v9 main_v10
  let main_c_3 : IVec S_ 1 := constantI S_ 1 1#1
  let main_v12 : IVec S_ 1 := (fun x v => Host.reduce IntOp.andi x v reducesTo_S640x1024_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S200x8x512 : Shape := ⟨3, ![200, 8, 512]⟩
abbrev S50x8x512 : Shape := ⟨3, ![50, 8, 512]⟩
abbrev S640x1024 : Shape := ⟨2, ![640, 1024]⟩
abbrev S640 : Shape := ⟨1, ![640]⟩
abbrev S1000x640 : Shape := ⟨2, ![1000, 640]⟩
abbrev S1000 : Shape := ⟨1, ![1000]⟩
abbrev S640x512 : Shape := ⟨2, ![640, 512]⟩
abbrev S8x200x512 : Shape := ⟨3, ![8, 200, 512]⟩
abbrev S8x50x512 : Shape := ⟨3, ![8, 50, 512]⟩
abbrev S512x640 : Shape := ⟨2, ![512, 640]⟩
abbrev S640x1000 : Shape := ⟨2, ![640, 1000]⟩
abbrev S8x200x50x1000 : Shape := ⟨4, ![8, 200, 50, 1000]⟩
abbrev S8x8x512 : Shape := ⟨3, ![8, 8, 512]⟩
abbrev S8x8x50x1000 : Shape := ⟨4, ![8, 8, 50, 1000]⟩
abbrev S64x512 : Shape := ⟨2, ![64, 512]⟩
abbrev S400x512 : Shape := ⟨2, ![400, 512]⟩
abbrev S64x640 : Shape := ⟨2, ![64, 640]⟩
abbrev S8x8x640 : Shape := ⟨3, ![8, 8, 640]⟩
abbrev S400x640 : Shape := ⟨2, ![400, 640]⟩
abbrev S8x50x640 : Shape := ⟨3, ![8, 50, 640]⟩
abbrev S8x8x1x640 : Shape := ⟨4, ![8, 8, 1, 640]⟩
abbrev S8x1x50x640 : Shape := ⟨4, ![8, 1, 50, 640]⟩
abbrev S8x8x50x640 : Shape := ⟨4, ![8, 8, 50, 640]⟩
abbrev S1x1x1x640 : Shape := ⟨4, ![1, 1, 1, 640]⟩
abbrev S3200x640 : Shape := ⟨2, ![3200, 640]⟩
abbrev S3200x1000 : Shape := ⟨2, ![3200, 1000]⟩
abbrev S1x1000 : Shape := ⟨2, ![1, 1000]⟩

abbrev nBuf : Space → Nat
  | .hbm => 19
  | .vmem => 10
  | .smem => 0
  | _ => 0

abbrev bufTy : (tb : Table) → Fin (tcTables nBuf tb) → BufTy
  | .hbm, ⟨0, _⟩ => ⟨S200x8x512, .f32⟩
  | .hbm, ⟨1, _⟩ => ⟨S50x8x512, .f32⟩
  | .hbm, ⟨2, _⟩ => ⟨S640x1024, .f32⟩
  | .hbm, ⟨3, _⟩ => ⟨S640, .f32⟩
  | .hbm, ⟨4, _⟩ => ⟨S1000x640, .f32⟩
  | .hbm, ⟨5, _⟩ => ⟨S1000, .f32⟩
  | .hbm, ⟨6, _⟩ => ⟨S640x512, .f32⟩
  | .hbm, ⟨7, _⟩ => ⟨S640x512, .f32⟩
  | .hbm, ⟨8, _⟩ => ⟨S8x200x512, .f32⟩
  | .hbm, ⟨9, _⟩ => ⟨S8x200x512, .bf16⟩
  | .hbm, ⟨10, _⟩ => ⟨S8x50x512, .f32⟩
  | .hbm, ⟨11, _⟩ => ⟨S8x50x512, .bf16⟩
  | .hbm, ⟨12, _⟩ => ⟨S512x640, .f32⟩
  | .hbm, ⟨13, _⟩ => ⟨S512x640, .bf16⟩
  | .hbm, ⟨14, _⟩ => ⟨S512x640, .f32⟩
  | .hbm, ⟨15, _⟩ => ⟨S512x640, .bf16⟩
  | .hbm, ⟨16, _⟩ => ⟨S640x1000, .f32⟩
  | .hbm, ⟨17, _⟩ => ⟨S640x1000, .bf16⟩
  | .hbm, ⟨18, _⟩ => ⟨S8x200x50x1000, .f32⟩
  | .local _ .vmem, ⟨0, _⟩ => ⟨S8x8x512, .bf16⟩
  | .local _ .vmem, ⟨1, _⟩ => ⟨S8x8x512, .bf16⟩
  | .local _ .vmem, ⟨2, _⟩ => ⟨S8x50x512, .bf16⟩
  | .local _ .vmem, ⟨3, _⟩ => ⟨S512x640, .bf16⟩
  | .local _ .vmem, ⟨4, _⟩ => ⟨S512x640, .bf16⟩
  | .local _ .vmem, ⟨5, _⟩ => ⟨S640, .f32⟩
  | .local _ .vmem, ⟨6, _⟩ => ⟨S640x1000, .bf16⟩
  | .local _ .vmem, ⟨7, _⟩ => ⟨S1000, .f32⟩
  | .local _ .vmem, ⟨8, _⟩ => ⟨S8x8x50x1000, .f32⟩
  | .local _ .vmem, ⟨9, _⟩ => ⟨S8x8x50x1000, .f32⟩
  | _, _ => ⟨S200x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x50x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x1000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x8x50x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S640x1024_S640x512_0_0 : S640x1024.Slices ![0, 0] S640x512
  slices_S640x1024_S640x512_0_512 : S640x1024.Slices ![0, 512] S640x512
  transposes_S200x8x512_S8x200x512_1_0_2 : S200x8x512.Transposes [1, 0, 2] S8x200x512
  bitsLt_bf16_f32 : FTy.bits .bf16 < FTy.bits .f32
  transposes_S50x8x512_S8x50x512_1_0_2 : S50x8x512.Transposes [1, 0, 2] S8x50x512
  transposes_S640x512_S512x640_1_0 : S640x512.Transposes [1, 0] S512x640
  transposes_S1000x640_S640x1000_1_0 : S1000x640.Transposes [1, 0] S640x1000
  inb_S8x8x512_S8x8x512_0_0_0 : ∀ a, (![0, 0, 0] : Fin 3 → Nat) a + S8x8x512.size a ≤ S8x8x512.size a
  h_S8x8x512 : 0 < S8x8x512.numel
  shapeCasts_S8x8x512_S8x8x512 : S8x8x512.ShapeCasts S8x8x512
  shapeCasts_S8x8x512_S64x512 : S8x8x512.ShapeCasts S64x512
  inb_S8x50x512_S8x50x512_0_0_0 : ∀ a, (![0, 0, 0] : Fin 3 → Nat) a + S8x50x512.size a ≤ S8x50x512.size a
  h_S8x50x512 : 0 < S8x50x512.numel
  shapeCasts_S8x50x512_S8x50x512 : S8x50x512.ShapeCasts S8x50x512
  shapeCasts_S8x50x512_S400x512 : S8x50x512.ShapeCasts S400x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  shapeCasts_S64x640_S8x8x640 : S64x640.ShapeCasts S8x8x640
  shapeCasts_S400x640_S8x50x640 : S400x640.ShapeCasts S8x50x640
  inb_S640_S640_0 : ∀ a, (![0] : Fin 1 → Nat) a + S640.size a ≤ S640.size a
  h_S640 : 0 < S640.numel
  shapeCasts_S8x8x640_S8x8x1x640 : S8x8x640.ShapeCasts S8x8x1x640
  shapeCasts_S8x50x640_S8x1x50x640 : S8x50x640.ShapeCasts S8x1x50x640
  broadcasts_S8x8x1x640_S8x8x50x640 : S8x8x1x640.Broadcasts S8x8x50x640
  broadcasts_S8x1x50x640_S8x8x50x640 : S8x1x50x640.Broadcasts S8x8x50x640
  shapeCasts_S640_S1x1x1x640 : S640.ShapeCasts S1x1x1x640
  broadcasts_S1x1x1x640_S8x8x50x640 : S1x1x1x640.Broadcasts S8x8x50x640
  shapeCasts_S8x8x50x640_S3200x640 : S8x8x50x640.ShapeCasts S3200x640
  inb_S1000_S1000_0 : ∀ a, (![0] : Fin 1 → Nat) a + S1000.size a ≤ S1000.size a
  h_S1000 : 0 < S1000.numel
  inb_S640x1000_S640x1000_0_0 : ∀ a, (![0, 0] : Fin 2 → Nat) a + S640x1000.size a ≤ S640x1000.size a
  h_S640x1000 : 0 < S640x1000.numel
  shapeCasts_S640x1000_S640x1000 : S640x1000.ShapeCasts S640x1000
  shapeCasts_S1000_S1x1000 : S1000.ShapeCasts S1x1000
  broadcasts_S1x1000_S3200x1000 : S1x1000.Broadcasts S3200x1000
  shapeCasts_S3200x1000_S8x8x50x1000 : S3200x1000.ShapeCasts S8x8x50x1000
  inb_S8x8x50x1000_S8x8x50x1000_0_0_0_0 : ∀ a, (![0, 0, 0, 0] : Fin 4 → Nat) a + S8x8x50x1000.size a ≤ S8x8x50x1000.size a
  h_S8x8x50x1000 : 0 < S8x8x50x1000.numel
  dot_S64x512_S512x640_S64x640_1_0_0_1_n_n_wf : DotDims.WF S64x512 S512x640 S64x640 [1] [0] [0] [1] [] []
  dot_S400x512_S512x640_S400x640_1_0_0_1_n_n_wf : DotDims.WF S400x512 S512x640 S400x640 [1] [0] [0] [1] [] []
  dot_S3200x640_S640x1000_S3200x1000_1_0_0_1_n_n_wf : DotDims.WF S3200x640 S640x1000 S3200x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x512.size a ≤ S8x200x512.size a
  hwx0_0 : ∀ i : grid0.Coords, EltTy.bits .bf16 = 32 ∨ (Rect.block (s := S8x200x512) S8x8x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x50x512.size a ≤ S8x50x512.size a
  hwx0_1 : ∀ i : grid0.Coords, EltTy.bits .bf16 = 32 ∨ (Rect.block (s := S8x50x512) S8x50x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .bf16 = 32 ∨ (Rect.block (s := S512x640) S512x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x1000.size a ≤ S640x1000.size a
  hwx0_5 : ∀ i : grid0.Coords, EltTy.bits .bf16 = 32 ∨ (Rect.block (s := S640x1000) S640x1000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000.size a ≤ S1000.size a
  hwx0_6 : ∀ i : grid0.Coords, EltTy.bits .f32 = 32 ∨ (Rect.block (s := S1000) S1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x8x50x1000.size a ≤ S8x200x50x1000.size a
  hwx0_7 : ∀ i : grid0.Coords, EltTy.bits .f32 = 32 ∨ (Rect.block (s := S8x200x50x1000) S8x8x50x1000.size (cc0_transform_7 i) (hinb0_7 i)).WholeWords (EltTy.packing .f32)

variable [Facts₀]

def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S400x512_S512x640_S400x640_1_0_0_1_n_n : DotDims S400x512 S512x640 S400x640 where
  lhsContracting := [1]
  rhsContracting := [0]
  lhsNonContracting := [0]
  rhsNonContracting := [1]
  lhsBatch := []
  rhsBatch := []
  wf := dot_S400x512_S512x640_S400x640_1_0_0_1_n_n_wf
def dot_S3200x640_S640x1000_S3200x1000_1_0_0_1_n_n : DotDims S3200x640 S640x1000 S3200x1000 where
  lhsContracting := [1]
  rhsContracting := [0]
  lhsNonContracting := [0]
  rhsNonContracting := [1]
  lhsBatch := []
  rhsBatch := []
  wf := dot_S3200x640_S640x1000_S3200x1000_1_0_0_1_n_n_wf

abbrev win0_0 : Pipeline.Window sig grid0 :=
  Pipeline.Window.ofSpec (Memref.whole main_v3) S8x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x50x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S640x1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S8x8x50x1000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200x8x512 : Shape := ⟨3, ![200, 8, 512]⟩
abbrev S50x8x512 : Shape := ⟨3, ![50, 8, 512]⟩
abbrev S640x1024 : Shape := ⟨2, ![640, 1024]⟩
abbrev S640 : Shape := ⟨1, ![640]⟩
abbrev S1000x640 : Shape := ⟨2, ![1000, 640]⟩
abbrev S1000 : Shape := ⟨1, ![1000]⟩
abbrev S640x512 : Shape := ⟨2, ![640, 512]⟩
abbrev S200x8x640 : Shape := ⟨3, ![200, 8, 640]⟩
abbrev S50x8x640 : Shape := ⟨3, ![50, 8, 640]⟩
abbrev S200x1x8x640 : Shape := ⟨4, ![200, 1, 8, 640]⟩
abbrev S1x50x8x640 : Shape := ⟨4, ![1, 50, 8, 640]⟩
abbrev S200x50x8x640 : Shape := ⟨4, ![200, 50, 8, 640]⟩
abbrev S1x1x1x640 : Shape := ⟨4, ![1, 1, 1, 640]⟩
abbrev S200x50x8x1000 : Shape := ⟨4, ![200, 50, 8, 1000]⟩
abbrev S1x1x1x1000 : Shape := ⟨4, ![1, 1, 1, 1000]⟩
abbrev S8x200x50x1000 : Shape := ⟨4, ![8, 200, 50, 1000]⟩

abbrev nBuf : Space → Nat
  | .hbm => 24
  | .vmem => 0
  | .smem => 0
  | _ => 0

abbrev bufTy : (tb : Table) → Fin (tcTables nBuf tb) → BufTy
  | .hbm, ⟨0, _⟩ => ⟨S200x8x512, .f32⟩
  | .hbm, ⟨1, _⟩ => ⟨S50x8x512, .f32⟩
  | .hbm, ⟨2, _⟩ => ⟨S640x1024, .f32⟩
  | .hbm, ⟨3, _⟩ => ⟨S640, .f32⟩
  | .hbm, ⟨4, _⟩ => ⟨S1000x640, .f32⟩
  | .hbm, ⟨5, _⟩ => ⟨S1000, .f32⟩
  | .hbm, ⟨6, _⟩ => ⟨S640x512, .f32⟩
  | .hbm, ⟨7, _⟩ => ⟨S640x512, .f32⟩
  | .hbm, ⟨8, _⟩ => ⟨S200x8x640, .f32⟩
  | .hbm, ⟨9, _⟩ => ⟨S50x8x640, .f32⟩
  | .hbm, ⟨10, _⟩ => ⟨S200x1x8x640, .f32⟩
  | .hbm, ⟨11, _⟩ => ⟨S1x50x8x640, .f32⟩
  | .hbm, ⟨12, _⟩ => ⟨S200x50x8x640, .f32⟩
  | .hbm, ⟨13, _⟩ => ⟨S200x50x8x640, .f32⟩
  | .hbm, ⟨14, _⟩ => ⟨S200x50x8x640, .f32⟩
  | .hbm, ⟨15, _⟩ => ⟨S1x1x1x640, .f32⟩
  | .hbm, ⟨16, _⟩ => ⟨S200x50x8x640, .f32⟩
  | .hbm, ⟨17, _⟩ => ⟨S200x50x8x640, .f32⟩
  | .hbm, ⟨18, _⟩ => ⟨S200x50x8x640, .f32⟩
  | .hbm, ⟨19, _⟩ => ⟨S200x50x8x1000, .f32⟩
  | .hbm, ⟨20, _⟩ => ⟨S1x1x1x1000, .f32⟩
  | .hbm, ⟨21, _⟩ => ⟨S200x50x8x1000, .f32⟩
  | .hbm, ⟨22, _⟩ => ⟨S200x50x8x1000, .f32⟩
  | .hbm, ⟨23, _⟩ => ⟨S8x200x50x1000, .f32⟩
  | _, _ => ⟨S200x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S640x1024_S640x512_0_0 : S640x1024.Slices ![0, 0] S640x512
  slices_S640x1024_S640x512_0_512 : S640x1024.Slices ![0, 512] S640x512
  bcast_S200x8x640_S200x1x8x640_0_2_3 : S200x8x640.BroadcastsInDim S200x1x8x640 (![0, 2, 3] : Fin 3 → Fin S200x1x8x640.rank)
  bcast_S50x8x640_S1x50x8x640_1_2_3 : S50x8x640.BroadcastsInDim S1x50x8x640 (![1, 2, 3] : Fin 3 → Fin S1x50x8x640.rank)
  bcast_S200x1x8x640_S200x50x8x640_0_1_2_3 : S200x1x8x640.BroadcastsInDim S200x50x8x640 (![0, 1, 2, 3] : Fin 4 → Fin S200x50x8x640.rank)
  bcast_S1x50x8x640_S200x50x8x640_0_1_2_3 : S1x50x8x640.BroadcastsInDim S200x50x8x640 (![0, 1, 2, 3] : Fin 4 → Fin S200x50x8x640.rank)
  bcast_S640_S1x1x1x640_3 : S640.BroadcastsInDim S1x1x1x640 (![3] : Fin 1 → Fin S1x1x1x640.rank)
  bcast_S1x1x1x640_S200x50x8x640_0_1_2_3 : S1x1x1x640.BroadcastsInDim S200x50x8x640 (![0, 1, 2, 3] : Fin 4 → Fin S200x50x8x640.rank)
  bcast_S1000_S1x1x1x1000_3 : S1000.BroadcastsInDim S1x1x1x1000 (![3] : Fin 1 → Fin S1x1x1x1000.rank)
  bcast_S1x1x1x1000_S200x50x8x1000_0_1_2_3 : S1x1x1x1000.BroadcastsInDim S200x50x8x1000 (![0, 1, 2, 3] : Fin 4 → Fin S200x50x8x1000.rank)
  transposes_S200x50x8x1000_S8x200x50x1000_2_0_1_3 : S200x50x8x1000.Transposes [2, 0, 1, 3] S8x200x50x1000
  dot_S200x8x512_S640x512_S200x8x640_2_1_01_0_n_n_wf : DotDims.WF S200x8x512 S640x512 S200x8x640 [2] [1] [0, 1] [0] [] []
  dot_S50x8x512_S640x512_S50x8x640_2_1_01_0_n_n_wf : DotDims.WF S50x8x512 S640x512 S50x8x640 [2] [1] [0, 1] [0] [] []
  dot_S200x50x8x640_S1000x640_S200x50x8x1000_3_1_012_0_n_n_wf : DotDims.WF S200x50x8x640 S1000x640 S200x50x8x1000 [3] [1] [0, 1, 2] [0] [] []

variable [Facts₀]

def dot_S200x8x512_S640x512_S200x8x640_2_1_01_0_n_n : DotDims S200x8x512 S640x512 S200x8x640 where
  lhsContracting := [2]
  rhsContracting := [1]
  lhsNonContracting := [0, 1]
  rhsNonContracting := [0]
  lhsBatch := []
  rhsBatch := []
  wf := dot_S200x8x512_S640x512_S200x8x640_2_1_01_0_n_n_wf
def dot_S50x8x512_S640x512_S50x8x640_2_1_01_0_n_n : DotDims S50x8x512 S640x512 S50x8x640 where
  lhsContracting := [2]
  rhsContracting := [1]
  lhsNonContracting := [0, 1]
  rhsNonContracting := [0]
  lhsBatch := []
  rhsBatch := []
  wf := dot_S50x8x512_S640x512_S50x8x640_2_1_01_0_n_n_wf
def dot_S200x50x8x640_S1000x640_S200x50x8x1000_3_1_012_0_n_n : DotDims S200x50x8x640 S1000x640 S200x50x8x1000 where
  lhsContracting := [3]
  rhsContracting := [1]
  lhsNonContracting := [0, 1, 2]
  rhsNonContracting := [0]
  lhsBatch := []
  rhsBatch := []
  wf := dot_S200x50x8x640_S1000x640_S200x50x8x1000_3_1_012_0_n_n_wf

class Facts : Prop extends Facts₀ where

variable [Facts]
-- ==== Proof.JointSpec.lean ====
/-
  The joint network's output as ONE function of the six argument arrays, entry by entry, on the extended reals.

  With enc : [200, 8, 512] (time, batch, feature), pred : [50, 8, 512] (label, batch, feature), W1 : [640, 1024] whose
  row h holds the encoder weights in columns 0 … 511 and the predictor weights in columns 512 … 1023, b1 : [640],
  W2 : [1000, 640] and b2 : [1000], the output at (n, T, u, v) is

      ( ∑ h, tanh( (∑ d, enc[T,n,d] · W1[h,d]) + (∑ d, pred[u,n,d] · W1[h,512+d]) + b1[h] ) · W2[v,h] ) + b2[v].

  Both programs compute exactly this grouping: the two projections are added first, then the bias; the hidden
  activation multiplies W2 from the left; b2 is added to the finished sum. No law of the extended reals beyond reading
  each operation at an index is needed to join them, so finiteness of the inputs is never used.
-/
import Idealize.ShloMosaic.PureOps.Ideal
import Idealize.ShloMosaic.Lib.ValueIdx

noncomputable section

open scoped BigOperators

namespace Cert.JointSpec

open Idealize.ShloMosaic Idealize.ShloMosaic.ValueIdx

/-- Column `d` of the encoder half of a row of W1. -/
abbrev colEnc (d : Fin 512) : Fin 1024 := ⟨d.val, by have := d.isLt; omega⟩
/-- Column `d` of the predictor half of a row of W1: shifted by the encoder's 512 features. -/
abbrev colPred (d : Fin 512) : Fin 1024 := ⟨512 + d.val, by have := d.isLt; omega⟩

/-- The encoder projection at time `T`, batch entry `n`, hidden unit `h`. -/
def encProj (enc : FVec Ideal ⟨3, ![200, 8, 512]⟩ .f32) (W1 : FVec Ideal ⟨2, ![640, 1024]⟩ .f32)
    (T : Fin 200) (n : Fin 8) (h : Fin 640) : EReal :=
  ∑ d : Fin 512, enc (ix3 T n d) * W1 (ix2 h (colEnc d))

/-- The predictor projection at label position `u`, batch entry `n`, hidden unit `h`. -/
def predProj (pred : FVec Ideal ⟨3, ![50, 8, 512]⟩ .f32) (W1 : FVec Ideal ⟨2, ![640, 1024]⟩ .f32)
    (u : Fin 50) (n : Fin 8) (h : Fin 640) : EReal :=
  ∑ d : Fin 512, pred (ix3 u n d) * W1 (ix2 h (colPred d))

/-- The hidden activation: tanh of the two projections' sum plus the first bias. -/
def hidden (enc : FVec Ideal ⟨3, ![200, 8, 512]⟩ .f32) (pred : FVec Ideal ⟨3, ![50, 8, 512]⟩ .f32)
    (W1 : FVec Ideal ⟨2, ![640, 1024]⟩ .f32) (b1 : FVec Ideal ⟨1, ![640]⟩ .f32)
    (T : Fin 200) (u : Fin 50) (n : Fin 8) (h : Fin 640) : EReal :=
  Ideal.tanh (encProj enc W1 T n h + predProj pred W1 u n h + b1 (ix1 h))

/-- The output entry at batch entry `n`, time `T`, label position `u`, vocabulary entry `v`. -/
def jointAt (enc : FVec Ideal ⟨3, ![200, 8, 512]⟩ .f32) (pred : FVec Ideal ⟨3, ![50, 8, 512]⟩ .f32)
    (W1 : FVec Ideal ⟨2, ![640, 1024]⟩ .f32) (b1 : FVec Ideal ⟨1, ![640]⟩ .f32)
    (W2 : FVec Ideal ⟨2, ![1000, 640]⟩ .f32) (b2 : FVec Ideal ⟨1, ![1000]⟩ .f32)
    (n : Fin 8) (T : Fin 200) (u : Fin 50) (v : Fin 1000) : EReal :=
  (∑ h : Fin 640, hidden enc pred W1 b1 T u n h * W2 (ix2 v h)) + b2 (ix1 v)

/-- The whole output array [8, 200, 50, 1000]. -/
def joint (enc : FVec Ideal ⟨3, ![200, 8, 512]⟩ .f32) (pred : FVec Ideal ⟨3, ![50, 8, 512]⟩ .f32)
    (W1 : FVec Ideal ⟨2, ![640, 1024]⟩ .f32) (b1 : FVec Ideal ⟨1, ![640]⟩ .f32)
    (W2 : FVec Ideal ⟨2, ![1000, 640]⟩ .f32) (b2 : FVec Ideal ⟨1, ![1000]⟩ .f32) :
    FVec Ideal ⟨4, ![8, 200, 50, 1000]⟩ .f32 :=
  fun i => jointAt enc pred W1 b1 W2 b2 (i 0) (i 1) (i 2) (i 3)

/-- At an index given by its coordinates the array reads the entry. -/
theorem joint_ix4 (enc : FVec Ideal ⟨3, ![200, 8, 512]⟩ .f32) (pred : FVec Ideal ⟨3, ![50, 8, 512]⟩ .f32)
    (W1 : FVec Ideal ⟨2, ![640, 1024]⟩ .f32) (b1 : FVec Ideal ⟨1, ![640]⟩ .f32)
    (W2 : FVec Ideal ⟨2, ![1000, 640]⟩ .f32) (b2 : FVec Ideal ⟨1, ![1000]⟩ .f32)
    (n : Fin 8) (T : Fin 200) (u : Fin 50) (v : Fin 1000) :
    joint enc pred W1 b1 W2 b2 (ix4 n T u v) = jointAt enc pred W1 b1 W2 b2 n T u v := rfl

end Cert.JointSpec

end
-- ==== Proof.JointWindows.lean ====
/-
  What the kernel's windows stage, as entries of the argument arrays.

  Before the region the host transposes the encoder state [200, 8, 512] and the predictor state [50, 8, 512] to put
  the batch axis first, cuts W1 [640, 1024] into its two [640, 512] halves and transposes each to [512, 640], and
  transposes W2 [1000, 640] to [640, 1000]; every one of these is then rounded to bf16, which on the extended reals
  changes nothing. The two biases are staged as they are. Window 0 moves along the time axis eight steps per grid
  point; every other input window is the whole of its array at every point. So at grid point t the encoder block's
  entry (n, tt, d) is enc[8·t + tt, n, d], the predictor block's (n, u, d) is pred[u, n, d], the weight blocks' (d, h)
  are W1[h, d] and W1[h, 512 + d], and the last weight block's (h, v) is W2[v, h].
-/
import proofs.«176686_j15650860827001_1_alg».proof.Proof.Gen.KernelIdeal.Frame
import proofs.«176686_j15650860827001_1_alg».proof.Proof.JointSpec
import Idealize.ShloMosaic.Lib.Pipeline.Value
import Idealize.ShloMosaic.Lib.ValueIdx
import Idealize.ShloMosaic.Lib.StableHlo.Run

noncomputable section

namespace Cert.JointWindows

open Cert.KernelIdeal Cert.KernelIdeal.Gen Idealize.ShloMosaic Idealize.ShloMosaic.TcCoe Idealize.SL.Sem
open Idealize.ShloMosaic.ValueIdx Cert.JointSpec

variable (m : (ℓ : Loc nD τ sig) → Buf (Elt Ideal) ℓ)

/-! ## The staged arrays after the host prefix -/

/-- Window 0's array: the encoder state, batch axis first. -/
theorem arr0 (c : Dev nD) : (V m c main_v3 : S8x200x512.Idx → EReal)
    = truncf (F := Ideal) .bf16 (transpose S8x200x512 [1, 0, 2] (m ((c : Thread nD τ).loc main_arg0) : FVec Ideal S200x8x512 .f32) transposes_S200x8x512_S8x200x512_1_0_2) bitsLt_bf16_f32 := by
  dsimp only [Gen.V, Gen.hostOps0]; after_results

/-- Window 1's array: the predictor state, batch axis first. -/
theorem arr1 (c : Dev nD) : (V m c main_v5 : S8x50x512.Idx → EReal)
    = truncf (F := Ideal) .bf16 (transpose S8x50x512 [1, 0, 2] (m ((c : Thread nD τ).loc main_arg1) : FVec Ideal S50x8x512 .f32) transposes_S50x8x512_S8x50x512_1_0_2) bitsLt_bf16_f32 := by
  dsimp only [Gen.V, Gen.hostOps0]; after_results

/-- Window 2's array: the encoder half of W1, transposed. -/
theorem arr2 (c : Dev nD) : (V m c main_v7 : S512x640.Idx → EReal)
    = truncf (F := Ideal) .bf16 (transpose S512x640 [1, 0] (extractStridedSlice S640x512 ![0, 0] (m ((c : Thread nD τ).loc main_arg2) : FVec Ideal S640x1024 .f32) slices_S640x1024_S640x512_0_0) transposes_S640x512_S512x640_1_0) bitsLt_bf16_f32 := by
  dsimp only [Gen.V, Gen.hostOps0]; after_results

/-- Window 3's array: the predictor half of W1, transposed. -/
theorem arr3 (c : Dev nD) : (V m c main_v9 : S512x640.Idx → EReal)
    = truncf (F := Ideal) .bf16 (transpose S512x640 [1, 0] (extractStridedSlice S640x512 ![0, 512] (m ((c : Thread nD τ).loc main_arg2) : FVec Ideal S640x1024 .f32) slices_S640x1024_S640x512_0_512) transposes_S640x512_S512x640_1_0) bitsLt_bf16_f32 := by
  dsimp only [Gen.V, Gen.hostOps0]; after_results

/-- Window 5's array: W2 transposed. -/
theorem arr5 (c : Dev nD) : (V m c main_v11 : S640x1000.Idx → EReal)
    = truncf (F := Ideal) .bf16 (transpose S640x1000 [1, 0] (m ((c : Thread nD τ).loc main_arg4) : FVec Ideal S1000x640 .f32) transposes_S1000x640_S640x1000_1_0) bitsLt_bf16_f32 := by
  dsimp only [Gen.V, Gen.hostOps0]; after_results

/-! ## The same at an index -/

theorem arr0_apply (c : Dev nD) (n : Fin 8) (T : Fin 200) (d : Fin 512) :
    (V m c main_v3 : S8x200x512.Idx → EReal) (ix3 n T d) = (m ((c : Thread nD τ).loc main_arg0) : S200x8x512.Idx → EReal) (ix3 T n d) := by
  rw [arr0]
  exact transpose_apply [1, 0, 2] _ transposes_S200x8x512_S8x200x512_1_0_2 (ix3 n T d) (ix3 T n d) (fun b => match b with
    | ⟨0, _⟩ => rfl
    | ⟨1, _⟩ => rfl
    | ⟨2, _⟩ => rfl)

theorem arr1_apply (c : Dev nD) (n : Fin 8) (u : Fin 50) (d : Fin 512) :
    (V m c main_v5 : S8x50x512.Idx → EReal) (ix3 n u d) = (m ((c : Thread nD τ).loc main_arg1) : S50x8x512.Idx → EReal) (ix3 u n d) := by
  rw [arr1]
  exact transpose_apply [1, 0, 2] _ transposes_S50x8x512_S8x50x512_1_0_2 (ix3 n u d) (ix3 u n d) (fun b => match b with
    | ⟨0, _⟩ => rfl
    | ⟨1, _⟩ => rfl
    | ⟨2, _⟩ => rfl)

theorem arr2_apply (c : Dev nD) (d : Fin 512) (h : Fin 640) :
    (V m c main_v7 : S512x640.Idx → EReal) (ix2 d h) = (m ((c : Thread nD τ).loc main_arg2) : S640x1024.Idx → EReal) (ix2 h (colEnc d)) := by
  rw [arr2]
  show transpose S512x640 [1, 0] (extractStridedSlice S640x512 ![0, 0] (m ((c : Thread nD τ).loc main_arg2) : FVec Ideal S640x1024 .f32) slices_S640x1024_S640x512_0_0) transposes_S640x512_S512x640_1_0 (ix2 d h) = _
  refine (transpose_apply [1, 0] _ transposes_S640x512_S512x640_1_0 (ix2 d h) (ix2 h d) (fun b => match b with
    | ⟨0, _⟩ => rfl
    | ⟨1, _⟩ => rfl)).trans ?_
  exact extractStridedSlice_apply ![0, 0] _ slices_S640x1024_S640x512_0_0 (ix2 h d) (ix2 h (colEnc d)) (fun a => match a with
    | ⟨0, _⟩ => by show h.val = 0 + h.val; omega
    | ⟨1, _⟩ => by show d.val = 0 + d.val; omega)

theorem arr3_apply (c : Dev nD) (d : Fin 512) (h : Fin 640) :
    (V m c main_v9 : S512x640.Idx → EReal) (ix2 d h) = (m ((c : Thread nD τ).loc main_arg2) : S640x1024.Idx → EReal) (ix2 h (colPred d)) := by
  rw [arr3]
  show transpose S512x640 [1, 0] (extractStridedSlice S640x512 ![0, 512] (m ((c : Thread nD τ).loc main_arg2) : FVec Ideal S640x1024 .f32) slices_S640x1024_S640x512_0_512) transposes_S640x512_S512x640_1_0 (ix2 d h) = _
  refine (transpose_apply [1, 0] _ transposes_S640x512_S512x640_1_0 (ix2 d h) (ix2 h d) (fun b => match b with
    | ⟨0, _⟩ => rfl
    | ⟨1, _⟩ => rfl)).trans ?_
  exact extractStridedSlice_apply ![0, 512] _ slices_S640x1024_S640x512_0_512 (ix2 h d) (ix2 h (colPred d)) (fun a => match a with
    | ⟨0, _⟩ => by show h.val = 0 + h.val; omega
    | ⟨1, _⟩ => by show 512 + d.val = 512 + d.val; rfl)

theorem arr5_apply (c : Dev nD) (h : Fin 640) (v : Fin 1000) :
    (V m c main_v11 : S640x1000.Idx → EReal) (ix2 h v) = (m ((c : Thread nD τ).loc main_arg4) : S1000x640.Idx → EReal) (ix2 v h) := by
  rw [arr5]
  exact transpose_apply [1, 0] _ transposes_S1000x640_S640x1000_1_0 (ix2 h v) (ix2 v h) (fun b => match b with
    | ⟨0, _⟩ => rfl
    | ⟨1, _⟩ => rfl)

/-! ## The windows' blocks at a grid point -/

/-- The printed index maps over the 25 grid points: only the encoder window and the output window move, one block
    along the time axis per point. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) = 0 ∧ win0_7.index t (1 : Fin 4) = t.val ∧ win0_7.index t (2 : Fin 4) = 0 ∧ win0_7.index t (3 : Fin 4) = 0 :=
  (by decide +kernel : ∀ t : Fin grid0.N, _)

/-- The time step that offset `tt` of grid point `t`'s block holds. -/
def timeOf (t : Fin cfg0.N) (tt : Fin 8) : Fin 200 :=
  ⟨t.val * 8 + tt.val, by have := t.isLt; have hN : cfg0.N = 25 := N_0; have := tt.isLt; omega⟩

theorem timeOf_val (t : Fin cfg0.N) (tt : Fin 8) : (timeOf t tt).val = t.val * 8 + tt.val := rfl

/-- The encoder block at point `t`. -/
theorem blk0_apply (c : Dev nD) (t : Fin cfg0.N) (n tt : Fin 8) (d : Fin 512) :
    (iblk m c 0 t : S8x8x512.Idx → EReal) (ix3 n tt d) = (m ((c : Thread nD τ).loc main_arg0) : S200x8x512.Idx → EReal) (ix3 (timeOf t tt) n d) := by
  obtain ⟨e0, e1, e2, -⟩ := idx_facts t
  rw [← arr0_apply m c n (timeOf t tt) d]
  show (V m c main_v3 : S8x200x512.Idx → EReal) (((cfg0.win 0).blk t).view.emb (ix3 n tt d)) = _
  refine congrArg (V m c main_v3 : S8x200x512.Idx → EReal) (funext fun a => Fin.ext ?_)
  match a with
  | ⟨0, _⟩ => show win0_0.index t (0 : Fin 3) * 8 + 1 * n.val = n.val; omega
  | ⟨1, _⟩ => show win0_0.index t (1 : Fin 3) * 8 + 1 * tt.val = t.val * 8 + tt.val; omega
  | ⟨2, _⟩ => show win0_0.index t (2 : Fin 3) * 512 + 1 * d.val = d.val; omega

/-- The predictor block, the same at every point. -/
theorem blk1_apply (c : Dev nD) (t : Fin cfg0.N) (n : Fin 8) (u : Fin 50) (d : Fin 512) :
    (iblk m c 1 t : S8x50x512.Idx → EReal) (ix3 n u d) = (m ((c : Thread nD τ).loc main_arg1) : S50x8x512.Idx → EReal) (ix3 u n d) := by
  obtain ⟨-, -, -, e0, e1, e2, -⟩ := idx_facts t
  rw [← arr1_apply m c n u d]
  show (V m c main_v5 : S8x50x512.Idx → EReal) (((cfg0.win 1).blk t).view.emb (ix3 n u d)) = _
  refine congrArg (V m c main_v5 : S8x50x512.Idx → EReal) (funext fun a => Fin.ext ?_)
  match a with
  | ⟨0, _⟩ => show win0_1.index t (0 : Fin 3) * 8 + 1 * n.val = n.val; omega
  | ⟨1, _⟩ => show win0_1.index t (1 : Fin 3) * 50 + 1 * u.val = u.val; omega
  | ⟨2, _⟩ => show win0_1.index t (2 : Fin 3) * 512 + 1 * d.val = d.val; omega

/-- The encoder weights' block. -/
theorem blk2_apply (c : Dev nD) (t : Fin cfg0.N) (d : Fin 512) (h : Fin 640) :
    (iblk m c 2 t : S512x640.Idx → EReal) (ix2 d h) = (m ((c : Thread nD τ).loc main_arg2) : S640x1024.Idx → EReal) (ix2 h (colEnc d)) := by
  obtain ⟨-, -, -, -, -, -, e0, e1, -⟩ := idx_facts t
  rw [← arr2_apply m c d h]
  show (V m c main_v7 : S512x640.Idx → EReal) (((cfg0.win 2).blk t).view.emb (ix2 d h)) = _
  refine congrArg (V m c main_v7 : S512x640.Idx → EReal) (funext fun a => Fin.ext ?_)
  match a with
  | ⟨0, _⟩ => show win0_2.index t (0 : Fin 2) * 512 + 1 * d.val = d.val; omega
  | ⟨1, _⟩ => show win0_2.index t (1 : Fin 2) * 640 + 1 * h.val = h.val; omega

/-- The predictor weights' block. -/
theorem blk3_apply (c : Dev nD) (t : Fin cfg0.N) (d : Fin 512) (h : Fin 640) :
    (iblk m c 3 t : S512x640.Idx → EReal) (ix2 d h) = (m ((c : Thread nD τ).loc main_arg2) : S640x1024.Idx → EReal) (ix2 h (colPred d)) := by
  obtain ⟨-, -, -, -, -, -, -, -, e0, e1, -⟩ := idx_facts t
  rw [← arr3_apply m c d h]
  show (V m c main_v9 : S512x640.Idx → EReal) (((cfg0.win 3).blk t).view.emb (ix2 d h)) = _
  refine congrArg (V m c main_v9 : S512x640.Idx → EReal) (funext fun a => Fin.ext ?_)
  match a with
  | ⟨0, _⟩ => show win0_3.index t (0 : Fin 2) * 512 + 1 * d.val = d.val; omega
  | ⟨1, _⟩ => show win0_3.index t (1 : Fin 2) * 640 + 1 * h.val = h.val; omega

/-- The first bias's block. -/
theorem blk4_apply (c : Dev nD) (t : Fin cfg0.N) (h : Fin 640) :
    (iblk m c 4 t : S640.Idx → EReal) (ix1 h) = (m ((c : Thread nD τ).loc main_arg3) : S640.Idx → EReal) (ix1 h) := by
  obtain ⟨-, -, -, -, -, -, -, -, -, -, e0, -⟩ := idx_facts t
  rw [← V_main_arg3 m c]
  show (V m c main_arg3 : S640.Idx → EReal) (((cfg0.win 4).blk t).view.emb (ix1 h)) = _
  refine congrArg (V m c main_arg3 : S640.Idx → EReal) (funext fun a => Fin.ext ?_)
  match a with
  | ⟨0, _⟩ => show win0_4.index t (0 : Fin 1) * 640 + 1 * h.val = h.val; omega

/-- The output weights' block. -/
theorem blk5_apply (c : Dev nD) (t : Fin cfg0.N) (h : Fin 640) (v : Fin 1000) :
    (iblk m c 5 t : S640x1000.Idx → EReal) (ix2 h v) = (m ((c : Thread nD τ).loc main_arg4) : S1000x640.Idx → EReal) (ix2 v h) := by
  obtain ⟨-, -, -, -, -, -, -, -, -, -, -, e0, e1, -⟩ := idx_facts t
  rw [← arr5_apply m c h v]
  show (V m c main_v11 : S640x1000.Idx → EReal) (((cfg0.win 5).blk t).view.emb (ix2 h v)) = _
  refine congrArg (V m c main_v11 : S640x1000.Idx → EReal) (funext fun a => Fin.ext ?_)
  match a with
  | ⟨0, _⟩ => show win0_5.index t (0 : Fin 2) * 640 + 1 * h.val = h.val; omega
  | ⟨1, _⟩ => show win0_5.index t (1 : Fin 2) * 1000 + 1 * v.val = v.val; omega

/-- The second bias's block. -/
theorem blk6_apply (c : Dev nD) (t : Fin cfg0.N) (v : Fin 1000) :
    (iblk m c 6 t : S1000.Idx → EReal) (ix1 v) = (m ((c : Thread nD τ).loc main_arg5) : S1000.Idx → EReal) (ix1 v) := by
  obtain ⟨-, -, -, -, -, -, -, -, -, -, -, -, -, e0, -⟩ := idx_facts t
  rw [← V_main_arg5 m c]
  show (V m c main_arg5 : S1000.Idx → EReal) (((cfg0.win 6).blk t).view.emb (ix1 v)) = _
  refine congrArg (V m c main_arg5 : S1000.Idx → EReal) (funext fun a => Fin.ext ?_)
  match a with
  | ⟨0, _⟩ => show win0_6.index t (0 : Fin 1) * 1000 + 1 * v.val = v.val; omega

end Cert.JointWindows

end
-- ==== Proof.JointBody.lean ====
/-
  The kernel body's one stored value, read at an index of its [8, 8, 50, 1000] block.

  The body flattens the encoder block [8, 8, 512] to 64 rows and the predictor block [8, 50, 512] to 400 rows,
  multiplies each by its [512, 640] weight block into a zero accumulator, views the products as [8, 8, 640] and
  [8, 50, 640], broadcasts both and the bias over the (time, label) pair, applies tanh, flattens the [8, 8, 50, 640]
  activation to 3200 rows, multiplies by the [640, 1000] weight block into a zero accumulator, adds the second bias to
  every row and views the result as [8, 8, 50, 1000]. Row (n·8 + tt)·50 + u of the flattened activation is entry
  (n, tt, u): every flattening here is row-major, so each cast keeps the row-major position and nothing else moves.
  The stages are named so that each is read at an index once; the payload is their composition by unfolding.
-/
import proofs.«176686_j15650860827001_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.JointBody

open Cert.KernelIdeal Cert.KernelIdeal.Gen Idealize.ShloMosaic Idealize.ShloMosaic.ValueIdx

/-! ## Rows of the flattened blocks -/

/-- Row of the flattened encoder block that holds batch entry `n`, time offset `tt`. -/
abbrev rowE (n : Fin 8) (tt : Fin 8) : Fin 64 := ⟨n.val * 8 + tt.val, by have := n.isLt; have := tt.isLt; omega⟩
/-- Row of the flattened predictor block that holds batch entry `n`, label position `u`. -/
abbrev rowP (n : Fin 8) (u : Fin 50) : Fin 400 := ⟨n.val * 50 + u.val, by have := n.isLt; have := u.isLt; omega⟩
/-- Row of the flattened activation that holds batch entry `n`, time offset `tt`, label position `u`. -/
abbrev rowH (n : Fin 8) (tt : Fin 8) (u : Fin 50) : Fin 3200 :=
  ⟨(n.val * 8 + tt.val) * 50 + u.val, by have := n.isLt; have := tt.isLt; have := u.isLt; omega⟩

/-! ## The three matrix products into a zero accumulator, at an entry: the plain sum over the contracted axis -/

/-- On the row axis the left operand's index is the output's row. -/
theorem mmE_l0 (i : S64x640.Idx) (q : dot_S64x512_S512x640_S64x640_1_0_0_1_n_n.contr.Idx) : (dot_S64x512_S512x640_S64x640_1_0_0_1_n_n.lhsIdx i q 0).val = (i 0).val := by
  unfold DotDims.lhsIdx
  rw [dif_neg (show ¬(0 : Fin S64x512.rank) ∈ dot_S64x512_S512x640_S64x640_1_0_0_1_n_n.lhsBatch by decide), dif_pos (show (0 : Fin S64x512.rank) ∈ dot_S64x512_S512x640_S64x640_1_0_0_1_n_n.lhsNonContracting by decide)]
  rfl
/-- On the column axis the right operand's index is the output's column. -/
theorem mmE_r1 (i : S64x640.Idx) (q : dot_S64x512_S512x640_S64x640_1_0_0_1_n_n.contr.Idx) : (dot_S64x512_S512x640_S64x640_1_0_0_1_n_n.rhsIdx i q 1).val = (i 1).val := by
  unfold DotDims.rhsIdx
  rw [dif_neg (show ¬(1 : Fin S512x640.rank) ∈ dot_S64x512_S512x640_S64x640_1_0_0_1_n_n.rhsBatch by decide), dif_pos (show (1 : Fin S512x640.rank) ∈ dot_S64x512_S512x640_S64x640_1_0_0_1_n_n.rhsNonContracting by decide)]
  rfl
/-- The encoder product [64, 512] · [512, 640]. -/
theorem mmE_apply (l : FVec Ideal S64x512 .bf16) (r : FVec Ideal S512x640 .bf16) (p : Fin 64) (q : Fin 640) :
    matmul dot_S64x512_S512x640_S64x640_1_0_0_1_n_n none l r (constant (F := Ideal) S64x640 .f32 0x00000000#32) (ix2 p q)
      = ∑ k : Fin 512, l (ix2 p k) * r (ix2 k q) := by
  refine (Ideal.matmul_constant_zero_apply dot_S64x512_S512x640_S64x640_1_0_0_1_n_n none l r (ix2 p q)).trans ?_
  rw [← Equiv.sum_comp (contrEquiv1 dot_S64x512_S512x640_S64x640_1_0_0_1_n_n 512 rfl rfl).symm]
  refine Finset.sum_congr rfl fun k _ => ?_
  have hk := contrEquiv1_symm_val dot_S64x512_S512x640_S64x640_1_0_0_1_n_n 512 rfl rfl k
  have el : dot_S64x512_S512x640_S64x640_1_0_0_1_n_n.lhsIdx (ix2 p q) ((contrEquiv1 dot_S64x512_S512x640_S64x640_1_0_0_1_n_n 512 rfl rfl).symm k) = ix2 p k := funext fun a => Fin.ext (by
    match a with
    | ⟨0, _⟩ => exact mmE_l0 _ _
    | ⟨1, _⟩ => exact (dot_S64x512_S512x640_S64x640_1_0_0_1_n_n.lhsIdx_val_of_single rfl (ix2 p q) _).trans hk)
  have er : dot_S64x512_S512x640_S64x640_1_0_0_1_n_n.rhsIdx (ix2 p q) ((contrEquiv1 dot_S64x512_S512x640_S64x640_1_0_0_1_n_n 512 rfl rfl).symm k) = ix2 k q := funext fun a => Fin.ext (by
    match a with
    | ⟨0, _⟩ => exact (dot_S64x512_S512x640_S64x640_1_0_0_1_n_n.rhsIdx_val_of_single rfl (ix2 p q) _).trans hk
    | ⟨1, _⟩ => exact mmE_r1 _ _)
  rw [el, er]

/-- On the row axis the left operand's index is the output's row. -/
theorem mmP_l0 (i : S400x640.Idx) (q : dot_S400x512_S512x640_S400x640_1_0_0_1_n_n.contr.Idx) : (dot_S400x512_S512x640_S400x640_1_0_0_1_n_n.lhsIdx i q 0).val = (i 0).val := by
  unfold DotDims.lhsIdx
  rw [dif_neg (show ¬(0 : Fin S400x512.rank) ∈ dot_S400x512_S512x640_S400x640_1_0_0_1_n_n.lhsBatch by decide), dif_pos (show (0 : Fin S400x512.rank) ∈ dot_S400x512_S512x640_S400x640_1_0_0_1_n_n.lhsNonContracting by decide)]
  rfl
/-- On the column axis the right operand's index is the output's column. -/
theorem mmP_r1 (i : S400x640.Idx) (q : dot_S400x512_S512x640_S400x640_1_0_0_1_n_n.contr.Idx) : (dot_S400x512_S512x640_S400x640_1_0_0_1_n_n.rhsIdx i q 1).val = (i 1).val := by
  unfold DotDims.rhsIdx
  rw [dif_neg (show ¬(1 : Fin S512x640.rank) ∈ dot_S400x512_S512x640_S400x640_1_0_0_1_n_n.rhsBatch by decide), dif_pos (show (1 : Fin S512x640.rank) ∈ dot_S400x512_S512x640_S400x640_1_0_0_1_n_n.rhsNonContracting by decide)]
  rfl
/-- The predictor product [400, 512] · [512, 640]. -/
theorem mmP_apply (l : FVec Ideal S400x512 .bf16) (r : FVec Ideal S512x640 .bf16) (p : Fin 400) (q : Fin 640) :
    matmul dot_S400x512_S512x640_S400x640_1_0_0_1_n_n none l r (constant (F := Ideal) S400x640 .f32 0x00000000#32) (ix2 p q)
      = ∑ k : Fin 512, l (ix2 p k) * r (ix2 k q) := by
  refine (Ideal.matmul_constant_zero_apply dot_S400x512_S512x640_S400x640_1_0_0_1_n_n none l r (ix2 p q)).trans ?_
  rw [← Equiv.sum_comp (contrEquiv1 dot_S400x512_S512x640_S400x640_1_0_0_1_n_n 512 rfl rfl).symm]
  refine Finset.sum_congr rfl fun k _ => ?_
  have hk := contrEquiv1_symm_val dot_S400x512_S512x640_S400x640_1_0_0_1_n_n 512 rfl rfl k
  have el : dot_S400x512_S512x640_S400x640_1_0_0_1_n_n.lhsIdx (ix2 p q) ((contrEquiv1 dot_S400x512_S512x640_S400x640_1_0_0_1_n_n 512 rfl rfl).symm k) = ix2 p k := funext fun a => Fin.ext (by
    match a with
    | ⟨0, _⟩ => exact mmP_l0 _ _
    | ⟨1, _⟩ => exact (dot_S400x512_S512x640_S400x640_1_0_0_1_n_n.lhsIdx_val_of_single rfl (ix2 p q) _).trans hk)
  have er : dot_S400x512_S512x640_S400x640_1_0_0_1_n_n.rhsIdx (ix2 p q) ((contrEquiv1 dot_S400x512_S512x640_S400x640_1_0_0_1_n_n 512 rfl rfl).symm k) = ix2 k q := funext fun a => Fin.ext (by
    match a with
    | ⟨0, _⟩ => exact (dot_S400x512_S512x640_S400x640_1_0_0_1_n_n.rhsIdx_val_of_single rfl (ix2 p q) _).trans hk
    | ⟨1, _⟩ => exact mmP_r1 _ _)
  rw [el, er]

/-- On the row axis the left operand's index is the output's row. -/
theorem mmO_l0 (i : S3200x1000.Idx) (q : dot_S3200x640_S640x1000_S3200x1000_1_0_0_1_n_n.contr.Idx) : (dot_S3200x640_S640x1000_S3200x1000_1_0_0_1_n_n.lhsIdx i q 0).val = (i 0).val := by
  unfold DotDims.lhsIdx
  rw [dif_neg (show ¬(0 : Fin S3200x640.rank) ∈ dot_S3200x640_S640x1000_S3200x1000_1_0_0_1_n_n.lhsBatch by decide), dif_pos (show (0 : Fin S3200x640.rank) ∈ dot_S3200x640_S640x1000_S3200x1000_1_0_0_1_n_n.lhsNonContracting by decide)]
  rfl
/-- On the column axis the right operand's index is the output's column. -/
theorem mmO_r1 (i : S3200x1000.Idx) (q : dot_S3200x640_S640x1000_S3200x1000_1_0_0_1_n_n.contr.Idx) : (dot_S3200x640_S640x1000_S3200x1000_1_0_0_1_n_n.rhsIdx i q 1).val = (i 1).val := by
  unfold DotDims.rhsIdx
  rw [dif_neg (show ¬(1 : Fin S640x1000.rank) ∈ dot_S3200x640_S640x1000_S3200x1000_1_0_0_1_n_n.rhsBatch by decide), dif_pos (show (1 : Fin S640x1000.rank) ∈ dot_S3200x640_S640x1000_S3200x1000_1_0_0_1_n_n.rhsNonContracting by decide)]
  rfl
/-- The output product [3200, 640] · [640, 1000]. -/
theorem mmO_apply (l : FVec Ideal S3200x640 .bf16) (r : FVec Ideal S640x1000 .bf16) (p : Fin 3200) (q : Fin 1000) :
    matmul dot_S3200x640_S640x1000_S3200x1000_1_0_0_1_n_n none l r (constant (F := Ideal) S3200x1000 .f32 0x00000000#32) (ix2 p q)
      = ∑ k : Fin 640, l (ix2 p k) * r (ix2 k q) := by
  refine (Ideal.matmul_constant_zero_apply dot_S3200x640_S640x1000_S3200x1000_1_0_0_1_n_n none l r (ix2 p q)).trans ?_
  rw [← Equiv.sum_comp (contrEquiv1 dot_S3200x640_S640x1000_S3200x1000_1_0_0_1_n_n 640 rfl rfl).symm]
  refine Finset.sum_congr rfl fun k _ => ?_
  have hk := contrEquiv1_symm_val dot_S3200x640_S640x1000_S3200x1000_1_0_0_1_n_n 640 rfl rfl k
  have el : dot_S3200x640_S640x1000_S3200x1000_1_0_0_1_n_n.lhsIdx (ix2 p q) ((contrEquiv1 dot_S3200x640_S640x1000_S3200x1000_1_0_0_1_n_n 640 rfl rfl).symm k) = ix2 p k := funext fun a => Fin.ext (by
    match a with
    | ⟨0, _⟩ => exact mmO_l0 _ _
    | ⟨1, _⟩ => exact (dot_S3200x640_S640x1000_S3200x1000_1_0_0_1_n_n.lhsIdx_val_of_single rfl (ix2 p q) _).trans hk)
  have er : dot_S3200x640_S640x1000_S3200x1000_1_0_0_1_n_n.rhsIdx (ix2 p q) ((contrEquiv1 dot_S3200x640_S640x1000_S3200x1000_1_0_0_1_n_n 640 rfl rfl).symm k) = ix2 k q := funext fun a => Fin.ext (by
    match a with
    | ⟨0, _⟩ => exact (dot_S3200x640_S640x1000_S3200x1000_1_0_0_1_n_n.rhsIdx_val_of_single rfl (ix2 p q) _).trans hk
    | ⟨1, _⟩ => exact mmO_r1 _ _)
  rw [el, er]

/-! ## The stages -/

/-- The encoder projection of the block, viewed [8, 8, 640]. -/
def encStage (x0 : FVec Ideal S8x8x512 .bf16) (x2 : FVec Ideal S512x640 .bf16) : FVec Ideal S8x8x640 .f32 :=
  shapeCast S8x8x640
    (matmul dot_S64x512_S512x640_S64x640_1_0_0_1_n_n none
      (shapeCast S64x512 (shapeCast S8x8x512 x0 shapeCasts_S8x8x512_S8x8x512) shapeCasts_S8x8x512_S64x512)
      (shapeCast S512x640 x2 shapeCasts_S512x640_S512x640) (constant S64x640 .f32 0x00000000#32))
    shapeCasts_S64x640_S8x8x640

/-- The predictor projection of the block, viewed [8, 50, 640]. -/
def predStage (x1 : FVec Ideal S8x50x512 .bf16) (x3 : FVec Ideal S512x640 .bf16) : FVec Ideal S8x50x640 .f32 :=
  shapeCast S8x50x640
    (matmul dot_S400x512_S512x640_S400x640_1_0_0_1_n_n none
      (shapeCast S400x512 (shapeCast S8x50x512 x1 shapeCasts_S8x50x512_S8x50x512) shapeCasts_S8x50x512_S400x512)
      (shapeCast S512x640 x3 shapeCasts_S512x640_S512x640) (constant S400x640 .f32 0x00000000#32))
    shapeCasts_S400x640_S8x50x640

/-- The hidden activation, flattened to 3200 rows. -/
def hidStage (e : FVec Ideal S8x8x640 .f32) (p : FVec Ideal S8x50x640 .f32) (x4 : FVec Ideal S640 .f32) : FVec Ideal S3200x640 .bf16 :=
  shapeCast S3200x640
    (truncf .bf16
      (tanh (addf
        (addf (broadcastTo S8x8x50x640 (shapeCast S8x8x1x640 e shapeCasts_S8x8x640_S8x8x1x640) broadcasts_S8x8x1x640_S8x8x50x640)
              (broadcastTo S8x8x50x640 (shapeCast S8x1x50x640 p shapeCasts_S8x50x640_S8x1x50x640) broadcasts_S8x1x50x640_S8x8x50x640))
        (broadcastTo S8x8x50x640 (shapeCast S1x1x1x640 x4 shapeCasts_S640_S1x1x1x640) broadcasts_S1x1x1x640_S8x8x50x640)))
      bitsLt_bf16_f32)
    shapeCasts_S8x8x50x640_S3200x640

/-- The output block from the flattened activation. -/
def outStage (hd : FVec Ideal S3200x640 .bf16) (x5 : FVec Ideal S640x1000 .bf16) (x6 : FVec Ideal S1000 .f32) : FVec Ideal S8x8x50x1000 .f32 :=
  shapeCast S8x8x50x1000
    (addf (matmul dot_S3200x640_S640x1000_S3200x1000_1_0_0_1_n_n none hd
            (shapeCast S640x1000 x5 shapeCasts_S640x1000_S640x1000) (constant S3200x1000 .f32 0x00000000#32))
          (broadcastTo S3200x1000 (shapeCast S1x1000 x6 shapeCasts_S1000_S1x1000) broadcasts_S1x1000_S3200x1000))
    shapeCasts_S3200x1000_S8x8x50x1000

/-- The body's stored value is the composition of the stages. -/
theorem pay_eq (x0 : FVec Ideal S8x8x512 .bf16) (x1 : FVec Ideal S8x50x512 .bf16) (x2 x3 : FVec Ideal S512x640 .bf16)
    (x4 : FVec Ideal S640 .f32) (x5 : FVec Ideal S640x1000 .bf16) (x6 : FVec Ideal S1000 .f32) :
    k0_pay1 (F := Ideal) x0 x1 x2 x3 x4 x6 x5 = outStage (hidStage (encStage x0 x2) (predStage x1 x3) x4) x5 x6 := rfl

/-! ## Each stage at an index -/

/-- The encoder projection at (n, tt, h): the sum over the features of block entry (n, tt, d) times weight (d, h). -/
theorem encStage_apply (x0 : FVec Ideal S8x8x512 .bf16) (x2 : FVec Ideal S512x640 .bf16) (n tt : Fin 8) (h : Fin 640) :
    encStage x0 x2 (ix3 n tt h) = ∑ d : Fin 512, x0 (ix3 n tt d) * x2 (ix2 d h) := by
  unfold encStage
  refine (shapeCast_apply _ _ (ix3 n tt h) (ix2 (rowE n tt) h) ?_).trans ?_
  · rw [Shape.rowMajor_val_two, Shape.rowMajor_val_three]
    show (n.val * 8 + tt.val) * 640 + h.val = (n.val * 8 + tt.val) * 640 + h.val
    rfl
  rw [mmE_apply]
  refine Finset.sum_congr rfl fun d _ => ?_
  rw [shapeCast_self, shapeCast_self]
  refine congrArg (· * x2 (ix2 d h)) (shapeCast_apply _ _ (ix2 (rowE n tt) d) (ix3 n tt d) ?_)
  rw [Shape.rowMajor_val_two, Shape.rowMajor_val_three]
  show (n.val * 8 + tt.val) * 512 + d.val = (n.val * 8 + tt.val) * 512 + d.val
  rfl

/-- The predictor projection at (n, u, h). -/
theorem predStage_apply (x1 : FVec Ideal S8x50x512 .bf16) (x3 : FVec Ideal S512x640 .bf16) (n : Fin 8) (u : Fin 50) (h : Fin 640) :
    predStage x1 x3 (ix3 n u h) = ∑ d : Fin 512, x1 (ix3 n u d) * x3 (ix2 d h) := by
  unfold predStage
  refine (shapeCast_apply _ _ (ix3 n u h) (ix2 (rowP n u) h) ?_).trans ?_
  · rw [Shape.rowMajor_val_two, Shape.rowMajor_val_three]
    show (n.val * 50 + u.val) * 640 + h.val = (n.val * 50 + u.val) * 640 + h.val
    rfl
  rw [mmP_apply]
  refine Finset.sum_congr rfl fun d _ => ?_
  rw [shapeCast_self, shapeCast_self]
  refine congrArg (· * x3 (ix2 d h)) (shapeCast_apply _ _ (ix2 (rowP n u) d) (ix3 n u d) ?_)
  rw [Shape.rowMajor_val_two, Shape.rowMajor_val_three]
  show (n.val * 50 + u.val) * 512 + d.val = (n.val * 50 + u.val) * 512 + d.val
  rfl

section Broadcasts
variable {α : Type}

/-- The encoder projection broadcast over the label axis reads (n, tt, h) at every u. -/
theorem bcE_apply (e : S8x8x640.Idx → α) (n tt : Fin 8) (u : Fin 50) (h : Fin 640) :
    broadcastTo S8x8x50x640 (shapeCast S8x8x1x640 e shapeCasts_S8x8x640_S8x8x1x640) broadcasts_S8x8x1x640_S8x8x50x640 (ix4 n tt u h)
      = e (ix3 n tt h) := by
  refine (broadcastTo_apply _ _ (ix4 n tt u h) (ix4 n tt (0 : Fin 1) h) (fun a => ?_)).trans ?_
  · match a with
    | ⟨0, _⟩ => show n.val = if (8 : Nat) = 1 then 0 else n.val; rw [if_neg (by decide)]
    | ⟨1, _⟩ => show tt.val = if (8 : Nat) = 1 then 0 else tt.val; rw [if_neg (by decide)]
    | ⟨2, _⟩ => show 0 = if (1 : Nat) = 1 then 0 else u.val; rw [if_pos rfl]
    | ⟨3, _⟩ => show h.val = if (640 : Nat) = 1 then 0 else h.val; rw [if_neg (by decide)]
  refine shapeCast_apply _ _ (ix4 n tt (0 : Fin 1) h) (ix3 n tt h) ?_
  rw [Shape.rowMajor_val_three, Shape.rowMajor_val_four]
  show (n.val * 8 + tt.val) * 640 + h.val = ((n.val * 8 + tt.val) * 1 + 0) * 640 + h.val
  omega

/-- The predictor projection broadcast over the time axis reads (n, u, h) at every tt. -/
theorem bcP_apply (p : S8x50x640.Idx → α) (n tt : Fin 8) (u : Fin 50) (h : Fin 640) :
    broadcastTo S8x8x50x640 (shapeCast S8x1x50x640 p shapeCasts_S8x50x640_S8x1x50x640) broadcasts_S8x1x50x640_S8x8x50x640 (ix4 n tt u h)
      = p (ix3 n u h) := by
  refine (broadcastTo_apply _ _ (ix4 n tt u h) (ix4 n (0 : Fin 1) u h) (fun a => ?_)).trans ?_
  · match a with
    | ⟨0, _⟩ => show n.val = if (8 : Nat) = 1 then 0 else n.val; rw [if_neg (by decide)]
    | ⟨1, _⟩ => show 0 = if (1 : Nat) = 1 then 0 else tt.val; rw [if_pos rfl]
    | ⟨2, _⟩ => show u.val = if (50 : Nat) = 1 then 0 else u.val; rw [if_neg (by decide)]
    | ⟨3, _⟩ => show h.val = if (640 : Nat) = 1 then 0 else h.val; rw [if_neg (by decide)]
  refine shapeCast_apply _ _ (ix4 n (0 : Fin 1) u h) (ix3 n u h) ?_
  rw [Shape.rowMajor_val_three, Shape.rowMajor_val_four]
  show (n.val * 50 + u.val) * 640 + h.val = ((n.val * 1 + 0) * 50 + u.val) * 640 + h.val
  omega

/-- The first bias broadcast over batch, time and label reads h. -/
theorem bcB1_apply (b : S640.Idx → α) (n tt : Fin 8) (u : Fin 50) (h : Fin 640) :
    broadcastTo S8x8x50x640 (shapeCast S1x1x1x640 b shapeCasts_S640_S1x1x1x640) broadcasts_S1x1x1x640_S8x8x50x640 (ix4 n tt u h)
      = b (ix1 h) := by
  refine (broadcastTo_apply _ _ (ix4 n tt u h) (ix4 (0 : Fin 1) (0 : Fin 1) (0 : Fin 1) h) (fun a => ?_)).trans ?_
  · match a with
    | ⟨0, _⟩ => show 0 = if (1 : Nat) = 1 then 0 else n.val; rw [if_pos rfl]
    | ⟨1, _⟩ => show 0 = if (1 : Nat) = 1 then 0 else tt.val; rw [if_pos rfl]
    | ⟨2, _⟩ => show 0 = if (1 : Nat) = 1 then 0 else u.val; rw [if_pos rfl]
    | ⟨3, _⟩ => show h.val = if (640 : Nat) = 1 then 0 else h.val; rw [if_neg (by decide)]
  refine shapeCast_apply _ _ (ix4 (0 : Fin 1) (0 : Fin 1) (0 : Fin 1) h) (ix1 h) ?_
  rw [Shape.rowMajor_val_one, Shape.rowMajor_val_four]
  show h.val = (((0 : Nat) * 1 + 0) * 1 + 0) * 640 + h.val
  omega

/-- The second bias broadcast over the 3200 rows reads v. -/
theorem bcB2_apply (b : S1000.Idx → α) (r : Fin 3200) (v : Fin 1000) :
    broadcastTo S3200x1000 (shapeCast S1x1000 b shapeCasts_S1000_S1x1000) broadcasts_S1x1000_S3200x1000 (ix2 r v) = b (ix1 v) := by
  refine (broadcastTo_apply _ _ (ix2 r v) (ix2 (0 : Fin 1) v) (fun a => ?_)).trans ?_
  · match a with
    | ⟨0, _⟩ => show 0 = if (1 : Nat) = 1 then 0 else r.val; rw [if_pos rfl]
    | ⟨1, _⟩ => show v.val = if (1000 : Nat) = 1 then 0 else v.val; rw [if_neg (by decide)]
  refine shapeCast_apply _ _ (ix2 (0 : Fin 1) v) (ix1 v) ?_
  rw [Shape.rowMajor_val_one, Shape.rowMajor_val_two]
  show v.val = (0 : Nat) * 1000 + v.val
  omega

end Broadcasts

/-- The flattened activation at row (n, tt, u), column h: tanh of the two projections and the bias, added in the
    body's order. -/
theorem hidStage_apply (e : FVec Ideal S8x8x640 .f32) (p : FVec Ideal S8x50x640 .f32) (x4 : FVec Ideal S640 .f32)
    (n tt : Fin 8) (u : Fin 50) (h : Fin 640) :
    hidStage e p x4 (ix2 (rowH n tt u) h) = Ideal.tanh (e (ix3 n tt h) + p (ix3 n u h) + x4 (ix1 h)) := by
  unfold hidStage
  refine (shapeCast_apply _ _ (ix2 (rowH n tt u) h) (ix4 n tt u h) ?_).trans ?_
  · rw [Shape.rowMajor_val_two, Shape.rowMajor_val_four]
    show ((n.val * 8 + tt.val) * 50 + u.val) * 640 + h.val = ((n.val * 8 + tt.val) * 50 + u.val) * 640 + h.val
    rfl
  show Ideal.tanh
      (broadcastTo S8x8x50x640 (shapeCast S8x8x1x640 e shapeCasts_S8x8x640_S8x8x1x640) broadcasts_S8x8x1x640_S8x8x50x640 (ix4 n tt u h)
        + broadcastTo S8x8x50x640 (shapeCast S8x1x50x640 p shapeCasts_S8x50x640_S8x1x50x640) broadcasts_S8x1x50x640_S8x8x50x640 (ix4 n tt u h)
        + broadcastTo S8x8x50x640 (shapeCast S1x1x1x640 x4 shapeCasts_S640_S1x1x1x640) broadcasts_S1x1x1x640_S8x8x50x640 (ix4 n tt u h)) = _
  rw [bcE_apply, bcP_apply, bcB1_apply]

/-- The output block at (n, tt, u, v): the activation's row (n, tt, u) against column v of the weights, plus the bias. -/
theorem outStage_apply (hd : FVec Ideal S3200x640 .bf16) (x5 : FVec Ideal S640x1000 .bf16) (x6 : FVec Ideal S1000 .f32)
    (n tt : Fin 8) (u : Fin 50) (v : Fin 1000) :
    outStage hd x5 x6 (ix4 n tt u v) = (∑ h : Fin 640, hd (ix2 (rowH n tt u) h) * x5 (ix2 h v)) + x6 (ix1 v) := by
  unfold outStage
  refine (shapeCast_apply _ _ (ix4 n tt u v) (ix2 (rowH n tt u) v) ?_).trans ?_
  · rw [Shape.rowMajor_val_two, Shape.rowMajor_val_four]
    show ((n.val * 8 + tt.val) * 50 + u.val) * 1000 + v.val = ((n.val * 8 + tt.val) * 50 + u.val) * 1000 + v.val
    rfl
  show matmul dot_S3200x640_S640x1000_S3200x1000_1_0_0_1_n_n none hd
        (shapeCast S640x1000 x5 shapeCasts_S640x1000_S640x1000) (constant (F := Ideal) S3200x1000 .f32 0x00000000#32) (ix2 (rowH n tt u) v)
      + broadcastTo S3200x1000 (shapeCast S1x1000 x6 shapeCasts_S1000_S1x1000) broadcasts_S1x1000_S3200x1000 (ix2 (rowH n tt u) v) = _
  rw [mmO_apply, bcB2_apply, shapeCast_self]

/-- THE BODY'S VALUE AT AN INDEX, over the blocks it loads. -/
theorem pay_apply (x0 : FVec Ideal S8x8x512 .bf16) (x1 : FVec Ideal S8x50x512 .bf16) (x2 x3 : FVec Ideal S512x640 .bf16)
    (x4 : FVec Ideal S640 .f32) (x5 : FVec Ideal S640x1000 .bf16) (x6 : FVec Ideal S1000 .f32)
    (n tt : Fin 8) (u : Fin 50) (v : Fin 1000) :
    k0_pay1 (F := Ideal) x0 x1 x2 x3 x4 x6 x5 (ix4 n tt u v)
      = (∑ h : Fin 640, Ideal.tanh ((∑ d : Fin 512, x0 (ix3 n tt d) * x2 (ix2 d h)) + (∑ d : Fin 512, x1 (ix3 n u d) * x3 (ix2 d h)) + x4 (ix1 h))
          * x5 (ix2 h v)) + x6 (ix1 v) := by
  rw [pay_eq, outStage_apply]
  refine congrArg (· + x6 (ix1 v)) (Finset.sum_congr rfl fun h _ => ?_)
  rw [hidStage_apply, encStage_apply, predStage_apply]

end Cert.JointBody

end
-- ==== Proof.JointPoint.lean ====
/-
  One grid point: if the blocks the body loads are the argument arrays read as the windows read them, the body's value
  at block index (n, tt, u, v) is the joint output at (n, time tt, u, v), where `time` sends an offset inside the
  encoder block to its time step. Stated over arbitrary blocks and an arbitrary `time`, so that it speaks of no window.
-/
import proofs.«176686_j15650860827001_1_alg».proof.Proof.JointBody
import proofs.«176686_j15650860827001_1_alg».proof.Proof.JointSpec

noncomputable section

open scoped BigOperators

namespace Cert.JointPoint

open Cert.KernelIdeal Cert.KernelIdeal.Gen Idealize.ShloMosaic Idealize.ShloMosaic.ValueIdx Cert.JointSpec Cert.JointBody

theorem point_eq (a0 : FVec Ideal S200x8x512 .f32) (a1 : FVec Ideal S50x8x512 .f32) (a2 : FVec Ideal S640x1024 .f32)
    (a3 : FVec Ideal S640 .f32) (a4 : FVec Ideal S1000x640 .f32) (a5 : FVec Ideal S1000 .f32)
    (x0 : FVec Ideal S8x8x512 .bf16) (x1 : FVec Ideal S8x50x512 .bf16) (x2 x3 : FVec Ideal S512x640 .bf16)
    (x4 : FVec Ideal S640 .f32) (x5 : FVec Ideal S640x1000 .bf16) (x6 : FVec Ideal S1000 .f32)
    (time : Fin 8 → Fin 200)
    (h0 : ∀ (n tt : Fin 8) (d : Fin 512), x0 (ix3 n tt d) = a0 (ix3 (time tt) n d))
    (h1 : ∀ (n : Fin 8) (u : Fin 50) (d : Fin 512), x1 (ix3 n u d) = a1 (ix3 u n d))
    (h2 : ∀ (d : Fin 512) (h : Fin 640), x2 (ix2 d h) = a2 (ix2 h (colEnc d)))
    (h3 : ∀ (d : Fin 512) (h : Fin 640), x3 (ix2 d h) = a2 (ix2 h (colPred d)))
    (h4 : ∀ h : Fin 640, x4 (ix1 h) = a3 (ix1 h))
    (h5 : ∀ (h : Fin 640) (v : Fin 1000), x5 (ix2 h v) = a4 (ix2 v h))
    (h6 : ∀ v : Fin 1000, x6 (ix1 v) = a5 (ix1 v))
    (n tt : Fin 8) (u : Fin 50) (v : Fin 1000) :
    k0_pay1 (F := Ideal) x0 x1 x2 x3 x4 x6 x5 (ix4 n tt u v) = jointAt a0 a1 a2 a3 a4 a5 n (time tt) u v := by
  rw [pay_apply]
  unfold jointAt JointSpec.hidden encProj predProj
  rw [h6 v]
  refine congrArg (· + a5 (ix1 v)) (Finset.sum_congr rfl fun h _ => ?_)
  rw [h5 h v, h4 h]
  refine congrArg (fun s => Ideal.tanh (s + a3 (ix1 h)) * a4 (ix2 v h)) ?_
  refine congrArg₂ (· + ·) (Finset.sum_congr rfl fun d _ => ?_) (Finset.sum_congr rfl fun d _ => ?_)
  · rw [h0 n tt d, h2 d h]
  · rw [h1 n u d, h3 d h]

end Cert.JointPoint

end
-- ==== Proof.JointBlocks.lean ====
/-
  From blocks to the array: the kernel's result array after the run is the joint output function of the arguments.

  Grid point t writes back the [8, 8, 50, 1000] block whose time offsets tt hold time steps 8·t + tt; by the point
  lemma that block is exactly the joint output read through the block. The 25 blocks tile the time axis 0 … 199 (time
  step T lies in block T / 8) and span the other three axes whole, so they cover the array, and the array ends holding
  the joint output at every index.
-/
import proofs.«176686_j15650860827001_1_alg».proof.Proof.Gen.KernelIdeal.Value
import proofs.«176686_j15650860827001_1_alg».proof.Proof.JointWindows
import proofs.«176686_j15650860827001_1_alg».proof.Proof.JointPoint

noncomputable section

namespace Cert.JointBlocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.JointSpec Cert.JointWindows Cert.JointPoint

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The joint output of the six argument arrays as core `c` holds them at launch. -/
def result (c : Dev nD) : FVec Ideal S8x200x50x1000 .f32 :=
  joint (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The body's value at point `t`, at block index (n, tt, u, v): the joint output at time step 8·t + tt. -/
theorem body_at (c : Dev nD) (t : Fin cfg0.N) (n tt : Fin 8) (u : Fin 50) (v : Fin 1000) :
    k0_pay1 (F := Ideal) (iblk m c 0 t) (iblk m c 1 t) (iblk m c 2 t) (iblk m c 3 t) (iblk m c 4 t) (iblk m c 6 t) (iblk m c 5 t) (ix4 n tt u v)
      = result m c (ix4 n (timeOf t tt) u v) :=
  point_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) (iblk m c 5 t) (iblk m c 6 t) (timeOf t)
    (blk0_apply m c t) (blk1_apply m c t) (blk2_apply m c t) (blk3_apply m c t) (blk4_apply m c t) (blk5_apply m c t) (blk6_apply m c t)
    n tt u v

/-- WHAT POINT `t` WRITES BACK is block `t` of the joint output. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz4]
  simp only [View.ld_unit_zero (S := S8x8x512) hz3, View.ld_unit_zero (S := S8x50x512) hz3, View.ld_unit_zero (S := S512x640) hz2,
    View.ld_unit_zero (S := S640) hz1, View.ld_unit_zero (S := S1000) hz1, View.ld_unit_zero (S := S640x1000) hz2]
  obtain ⟨-, -, -, -, -, -, -, -, -, -, -, -, -, -, e0, e1, e2, e3⟩ := idx_facts t
  have key : ∀ y : S8x8x50x1000.Idx,
      k0_pay1 (F := Ideal) (iblk m c 0 t) (iblk m c 1 t) (iblk m c 2 t) (iblk m c 3 t) (iblk m c 4 t) (iblk m c 6 t) (iblk m c 5 t) y
        = result m c (((cfg0.win 7).blk t).view.emb y) := fun y => by
    obtain ⟨n, tt, u, v, rfl⟩ : ∃ (n tt : Fin 8) (u : Fin 50) (v : Fin 1000), y = ix4 n tt u v := ⟨y 0, y 1, y 2, y 3, eq_ix4 y⟩
    rw [body_at m c t n tt u v]
    refine congrArg (result m c) (funext fun a => Fin.ext ?_)
    match a with
    | ⟨0, _⟩ => show n.val = win0_7.index t (0 : Fin 4) * 8 + 1 * n.val; omega
    | ⟨1, _⟩ => show t.val * 8 + tt.val = win0_7.index t (1 : Fin 4) * 8 + 1 * tt.val; omega
    | ⟨2, _⟩ => show u.val = win0_7.index t (2 : Fin 4) * 50 + 1 * u.val; omega
    | ⟨3, _⟩ => show v.val = win0_7.index t (3 : Fin 4) * 1000 + 1 * v.val; omega
  exact funext key

/-- An index of the array is in point `t`'s block iff each coordinate is in the block's range on its axis. -/
theorem mem_blk (t : Fin cfg0.N) (i : S8x200x50x1000.Idx) :
    i ∈ ((cfg0.win 7).blk t).view.set ↔ ∀ a : Fin 4, win0_7.index t a * S8x8x50x1000.size a ≤ (i a).val ∧ (i a).val < win0_7.index t a * S8x8x50x1000.size a + S8x8x50x1000.size a := by
  show i ∈ ((View.whole main_v12).slice (win0_7.rect t)).set ↔ _
  rw [View.set_slice_whole, Rect.mem_set_unit]
  exact Iff.rfl

/-- Every index is in some point's block: the one its time step falls in. -/
theorem cover (i : S8x200x50x1000.Idx) : ∃ t : Fin cfg0.N, (cfg0.win 7).flush t = true ∧ i ∈ ((cfg0.win 7).blk t).view.set := by
  have hN : cfg0.N = 25 := N_0
  have h0 : (i 0).val < 8 := (i 0).isLt
  have h1 : (i 1).val < 200 := (i 1).isLt
  have h2 : (i 2).val < 50 := (i 2).isLt
  have h3 : (i 3).val < 1000 := (i 3).isLt
  have hlt : (i 1).val / 8 < cfg0.N := by rw [hN]; omega
  obtain ⟨-, -, -, -, -, -, -, -, -, -, -, -, -, -, e0, e1, e2, e3⟩ := idx_facts ⟨(i 1).val / 8, hlt⟩
  have e1' : win0_7.index ⟨(i 1).val / 8, hlt⟩ (1 : Fin 4) = (i 1).val / 8 := e1
  refine ⟨⟨(i 1).val / 8, hlt⟩, flush0_7 _, ?_⟩
  rw [mem_blk]
  intro a
  match a with
  | ⟨0, _⟩ => show win0_7.index ⟨(i 1).val / 8, hlt⟩ (0 : Fin 4) * 8 ≤ (i 0).val ∧ (i 0).val < win0_7.index ⟨(i 1).val / 8, hlt⟩ (0 : Fin 4) * 8 + 8; omega
  | ⟨1, _⟩ => show win0_7.index ⟨(i 1).val / 8, hlt⟩ (1 : Fin 4) * 8 ≤ (i 1).val ∧ (i 1).val < win0_7.index ⟨(i 1).val / 8, hlt⟩ (1 : Fin 4) * 8 + 8; omega
  | ⟨2, _⟩ => show win0_7.index ⟨(i 1).val / 8, hlt⟩ (2 : Fin 4) * 50 ≤ (i 2).val ∧ (i 2).val < win0_7.index ⟨(i 1).val / 8, hlt⟩ (2 : Fin 4) * 50 + 50; omega
  | ⟨3, _⟩ => show win0_7.index ⟨(i 1).val / 8, hlt⟩ (3 : Fin 4) * 1000 ≤ (i 3).val ∧ (i 3).val < win0_7.index ⟨(i 1).val / 8, hlt⟩ (3 : Fin 4) * 1000 + 1000; omega

/-- THE ARRAY after the run is the joint output. -/
theorem final (c : Dev nD) : (dats m 0 c).arrAt 7 cfg0.N = result m c :=
  (dats m 0 c).arrAt_eq_of_cover 7 (result m c) (fun t _ => flushed_eq m c t) cover

/-- The kernel's run, read: the result array at the joint output of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.JointBlocks

end
-- ==== Proof.JointReference.lean ====
/-
  The reference's result array is the joint network's output function of its arguments.

  The reference slices W1 into its encoder and predictor halves, contracts each state with its half over the feature
  axis, broadcasts the two projections and the bias b1 to [200, 50, 8, 640], adds them in the order (enc + pred) + b1,
  applies tanh, contracts with W2 over the hidden axis, adds b2, and transposes [T, u, n, v] to [n, T, u, v]. Each of
  these operations read at an index is its operand at an index; the only work is to name those indices by coordinates.
-/
import proofs.«176686_j15650860827001_1_alg».proof.Proof.Gen.ReferenceIdeal.Read
import proofs.«176686_j15650860827001_1_alg».proof.Proof.JointSpec

noncomputable section

open scoped BigOperators

namespace Cert.JointReference

open Cert.ReferenceIdeal Cert.ReferenceIdeal.Read Idealize.ShloMosaic Idealize.ShloMosaic.ValueIdx Cert.JointSpec

/-- The contraction of the encoder state with the first slice of W1, at (T, n, h): the encoder projection. -/
theorem enc_eq (x0 : FVec Ideal S200x8x512 .f32) (x2 : FVec Ideal S640x1024 .f32) (T : Fin 200) (n : Fin 8) (h : Fin 640) :
    val_main_v2 (F := Ideal) x0 x2 (ix3 T n h) = encProj x0 x2 T n h := by
  rw [val_main_v2_apply]
  unfold encProj
  refine Finset.sum_congr rfl fun d _ => ?_
  rw [val_main_v0_apply]
  have el : lidx_main_v2 (ix3 T n h) d = ix3 T n d := funext fun a => Fin.ext (by
    match a with | ⟨0, _⟩ => rfl | ⟨1, _⟩ => rfl | ⟨2, _⟩ => rfl)
  have er : idx_main_v0 (ridx_main_v2 (ix3 T n h) d) = ix2 h (colEnc d) := funext fun a => Fin.ext (by
    match a with | ⟨0, _⟩ => rfl | ⟨1, _⟩ => rfl)
  rw [el, er]

/-- The contraction of the predictor state with the second slice of W1, at (u, n, h): the predictor projection. -/
theorem pred_eq (x1 : FVec Ideal S50x8x512 .f32) (x2 : FVec Ideal S640x1024 .f32) (u : Fin 50) (n : Fin 8) (h : Fin 640) :
    val_main_v3 (F := Ideal) x1 x2 (ix3 u n h) = predProj x1 x2 u n h := by
  rw [val_main_v3_apply]
  unfold predProj
  refine Finset.sum_congr rfl fun d _ => ?_
  rw [val_main_v1_apply]
  have el : lidx_main_v3 (ix3 u n h) d = ix3 u n d := funext fun a => Fin.ext (by
    match a with | ⟨0, _⟩ => rfl | ⟨1, _⟩ => rfl | ⟨2, _⟩ => rfl)
  have er : idx_main_v1 (ridx_main_v3 (ix3 u n h) d) = ix2 h (colPred d) := funext fun a => Fin.ext (by
    match a with | ⟨0, _⟩ => rfl | ⟨1, _⟩ => rfl)
  rw [el, er]

/-- The tanh stage at (T, u, n, h) is the hidden activation: the broadcasts read the projections at (T, n, h) and
    (u, n, h) and the bias at h. -/
theorem hidden_eq (x0 : FVec Ideal S200x8x512 .f32) (x1 : FVec Ideal S50x8x512 .f32) (x2 : FVec Ideal S640x1024 .f32)
    (x3 : FVec Ideal S640 .f32) (T : Fin 200) (u : Fin 50) (n : Fin 8) (h : Fin 640) :
    val_main_v12 (F := Ideal) x0 x1 x2 x3 (ix4 T u n h) = hidden x0 x1 x2 x3 T u n h := by
  rw [val_main_v12_apply, val_main_v11_apply, val_main_v8_apply, val_main_v6_apply, val_main_v4_apply,
    val_main_v7_apply, val_main_v5_apply, val_main_v10_apply, val_main_v9_apply]
  have e0 : idx_main_v4 (idx_main_v6 (ix4 T u n h)) = ix3 T n h := funext fun a => Fin.ext (by
    match a with | ⟨0, _⟩ => rfl | ⟨1, _⟩ => rfl | ⟨2, _⟩ => rfl)
  have e1 : idx_main_v5 (idx_main_v7 (ix4 T u n h)) = ix3 u n h := funext fun a => Fin.ext (by
    match a with | ⟨0, _⟩ => rfl | ⟨1, _⟩ => rfl | ⟨2, _⟩ => rfl)
  have e2 : idx_main_v9 (idx_main_v10 (ix4 T u n h)) = ix1 h := funext fun a => Fin.ext (by
    match a with | ⟨0, _⟩ => rfl)
  rw [e0, e1, e2, enc_eq, pred_eq]
  rfl

/-- THE REFERENCE IS THE SPECIFICATION: its last stage, the transpose to [n, T, u, v], is the joint output. -/
theorem ref_eq (x0 : FVec Ideal S200x8x512 .f32) (x1 : FVec Ideal S50x8x512 .f32) (x2 : FVec Ideal S640x1024 .f32)
    (x3 : FVec Ideal S640 .f32) (x4 : FVec Ideal S1000x640 .f32) (x5 : FVec Ideal S1000 .f32) :
    val_main_v17 (F := Ideal) x0 x1 x2 x3 x4 x5 = joint x0 x1 x2 x3 x4 x5 := by
  funext i
  obtain ⟨n, T, u, v, rfl⟩ : ∃ (n : Fin 8) (T : Fin 200) (u : Fin 50) (v : Fin 1000), i = ix4 n T u v :=
    ⟨i 0, i 1, i 2, i 3, eq_ix4 i⟩
  rw [joint_ix4, val_main_v17_apply, val_main_v16_apply, val_main_v13_apply, val_main_v15_apply, val_main_v14_apply]
  have e0 : idx_main_v14 (idx_main_v15 (idx_main_v17 (ix4 n T u v))) = ix1 v := funext fun a => Fin.ext (by
    match a with | ⟨0, _⟩ => rfl)
  have el : ∀ k : Fin 640, lidx_main_v13 (idx_main_v17 (ix4 n T u v)) k = ix4 T u n k := fun k => funext fun a => Fin.ext (by
    match a with | ⟨0, _⟩ => rfl | ⟨1, _⟩ => rfl | ⟨2, _⟩ => rfl | ⟨3, _⟩ => rfl)
  have er : ∀ k : Fin 640, ridx_main_v13 (idx_main_v17 (ix4 n T u v)) k = ix2 v k := fun k => funext fun a => Fin.ext (by
    match a with | ⟨0, _⟩ => rfl | ⟨1, _⟩ => rfl)
  rw [e0]
  unfold jointAt
  refine congrArg (· + x5 (ix1 v)) (Finset.sum_congr rfl fun k _ => ?_)
  rw [el k, er k, hidden_eq]

end Cert.JointReference

end
-- ==== Proof.lean ====
/-
  The RNN-T joint network, fused into one kernel, against its plain reference, on the extended reals.

  Both programs compute, for batch entry n, time step T, label position u and vocabulary entry v,

      out[n, T, u, v] = ( ∑ h, tanh( (∑ d, enc[T,n,d] · W1[h,d]) + (∑ d, pred[u,n,d] · W1[h,512+d]) + b1[h] ) · W2[v,h] ) + b2[v].

  The kernel tiles the time axis eight steps per grid point, keeps the predictor state and all weights resident, and
  does its three matrix products on operands rounded to bf16 with a zero f32 accumulator; on the extended reals a
  change of float format is the identity and a product into a zero accumulator is the plain sum, so nothing of that
  shows in the value. The reference contracts with einsum, broadcasts, and transposes at the end. The two sides add
  the same terms in the same grouping, so they are joined by reading each operation at an index and nothing more; in
  particular the precondition (finite inputs) is never opened.

  The pieces: `JointSpec` states the function; `JointReference` shows the reference's result array is it;
  `JointBody` reads the kernel body's stored value at an index; `JointWindows` says what each staged block holds of
  the arguments; `JointPoint` puts those together at one grid point; `JointBlocks` goes from the 25 blocks to the whole
  array and re-posts the kernel's run. No rewrite was applied when the idealized kernel was printed, so the
  idealization claim is `True`.
-/
import proofs.«176686_j15650860827001_1_alg».proof.Defs
import proofs.«176686_j15650860827001_1_alg».proof.Proof.Gen.Kernel
import proofs.«176686_j15650860827001_1_alg».proof.Proof.Gen.Kernel.Skeleton
import proofs.«176686_j15650860827001_1_alg».proof.Proof.Gen.Kernel.Launch
import proofs.«176686_j15650860827001_1_alg».proof.Proof.Gen.Kernel.Points
import proofs.«176686_j15650860827001_1_alg».proof.Proof.Gen.Kernel.Frame
import proofs.«176686_j15650860827001_1_alg».proof.Proof.Gen.KernelIdeal
import proofs.«176686_j15650860827001_1_alg».proof.Proof.Gen.KernelIdeal.Skeleton
import proofs.«176686_j15650860827001_1_alg».proof.Proof.Gen.KernelIdeal.Launch
import proofs.«176686_j15650860827001_1_alg».proof.Proof.Gen.KernelIdeal.Points
import proofs.«176686_j15650860827001_1_alg».proof.Proof.Gen.KernelIdeal.Frame
import proofs.«176686_j15650860827001_1_alg».proof.Proof.Gen.ReferenceIdeal
import proofs.«176686_j15650860827001_1_alg».proof.Proof.Gen.Pre_finite_inputs
import proofs.«176686_j15650860827001_1_alg».proof.Proof.Gen.KernelIdeal.Value
import proofs.«176686_j15650860827001_1_alg».proof.Proof.Gen.ReferenceIdeal.Run
import proofs.«176686_j15650860827001_1_alg».proof.Proof.Gen.ReferenceIdeal.Read
import proofs.«176686_j15650860827001_1_alg».proof.Proof.JointBlocks
import proofs.«176686_j15650860827001_1_alg».proof.Proof.JointReference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the joint output of the (agreeing) arguments in their result
    arrays: the kernel by its blocks, the reference by its operations read at an index. -/
theorem algebraic : Cert.algebraic_KernelIdeal_ReferenceIdeal := by
  intro m ρ m' ρ' _ hagree
  refine ⟨fun c => Cert.JointBlocks.result m c, Cert.JointBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.JointReference.ref_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
